-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : IVec S1x800000 32 := (extractStridedSlice S1x800000 ![0, 0] · slices_S2x800000_S1x800000_0_0) main_arg1
  let main_v20 : IVec S800000 32 := shapeCast S800000 main_v19 shapeCasts_S1x800000_S800000
  let main_c_6 : IVec S_ 32 := constantI S_ 32 0#32
  let main_v21 : IVec S800000 32 := broadcastInDim S800000 ![] bcast_S_S800000 main_c_6
  let main_v22 : IVec S800000 1 := cmpi .sge main_v20 main_v21
  let main_c_7 : IVec S_ 1 := constantI S_ 1 1#1
  let main_v23 : IVec S_ 1 := (fun x v => Host.reduce IntOp.andi x v reducesTo_S800000_S_d0 h_S_) main_v22 main_c_7
  let main_v24 : IVec S_ 1 := andi main_v18 main_v23
  main_v24

def fn {F : FTy → Type} [FloatOps F] (main_arg0 : FVec F S50000x128 .f32) (main_arg1 : IVec S2x800000 32) (main_arg2 : FVec F S800000x1 .f32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000x1 : Shape := ⟨2, ![50000, 1]⟩
abbrev S1000x128 : Shape := ⟨2, ![1000, 128]⟩
abbrev S1000x1 : Shape := ⟨2, ![1000, 1]⟩
abbrev S1000 : Shape := ⟨1, ![1000]⟩

abbrev nBuf : Space → Nat
  | .hbm => 51
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S50000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S50000x1, .f32⟩
  | .hbm, ⟨42, _⟩ => ⟨S_, .f32⟩
  | .hbm, ⟨43, _⟩ => ⟨S50000x1, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S128x128, .f32⟩
  | .hbm, ⟨49, _⟩ => ⟨S128x128, .f32⟩
  | .hbm, ⟨50, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x1, .f32⟩
  | .local _ .vmem, ⟨5, _⟩ => ⟨S1000x1, .f32⟩
  | .local _ .vmem, ⟨6, _⟩ => ⟨S128x128, .f32⟩
  | .local _ .vmem, ⟨7, _⟩ => ⟨S128x128, .f32⟩
  | .local _ .vmem, ⟨8, _⟩ => ⟨S1000x128, .f32⟩
  | .local _ .vmem, ⟨9, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  transposes_S128x128_S128x128_1_0 : S128x128.Transposes [1, 0] S128x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1000x1_S1000x128 : S1000x1.Broadcasts S1000x128
  bitsLt_bf16_f32 : FTy.bits .bf16 < FTy.bits .f32
  reduces_S1000x128_S1000 : S1000x128.Reduces [1] S1000
  shapeCasts_S1000_S1000x1 : S1000.ShapeCasts S1000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000x1 : Shape := ⟨2, ![50000, 1]⟩
abbrev S50000 : Shape := ⟨1, ![50000]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S128x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000x1, .f32⟩
  | .hbm, ⟨26, _⟩ => ⟨S_, .f32⟩
  | .hbm, ⟨27, _⟩ => ⟨S50000x1, .f32⟩
  | .hbm, ⟨28, _⟩ => ⟨S800000x1, .i32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S_, .f32⟩
  | .hbm, ⟨38, _⟩ => ⟨S_, .f32⟩
  | .hbm, ⟨39, _⟩ => ⟨S50000x128, .f32⟩
  | .hbm, ⟨40, _⟩ => ⟨S50000x128, .i1⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S_, .f32⟩
  | .hbm, ⟨48, _⟩ => ⟨S50000x128, .f32⟩
  | .hbm, ⟨49, _⟩ => ⟨S50000x128, .i1⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000, .f32⟩
  | .hbm, ⟨57, _⟩ => ⟨S50000x1, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.RowSpec.lean ====
/-
  One node of a mean-aggregating graph convolution, as a function of that node's data alone.

  A node has a feature row x (128 entries) and a neighbour row nm (the mean of its in-neighbours' feature rows).  With
  two weight matrices given contracted index first, the node's update is

      u q = L( Σ_c x c · ws (c, q)  +  L( Σ_c nm c · wn (c, q) ) ),      L z = z where z ≥ 0, 0.2 · z elsewhere,

  and its output is u divided by the row's length floored at 1e-12:  out q = u q / max (√(Σ_k u k · u k)) 1e-12.

  The neighbour mean is the neighbour sum divided by the edge count floored at one; one program multiplies the sum by
  the reciprocal 1 / n, the other divides it by n.  For a real n ≠ 0 these are one extended real, whatever the sum is:
  s · (1 / n) = s / n holds on all of [-∞, +∞] because dividing by a nonzero real IS multiplying by its real
  reciprocal there.
-/
import Idealize.ShloMosaic.PureOps.Ideal.Laws
import Idealize.ShloMosaic.Lib.ValueIdx

noncomputable section

open scoped BigOperators

namespace GraphConv

open Idealize.ShloMosaic Idealize.ShloMosaic.ValueIdx

/-- The rectifier's slope 0.2, as the single-precision word both programs carry. -/
def slope : EReal := Ideal.ofBits .f32 0x3E4CCCCD#32

/-- The floor 1e-12 under a row's length, as the single-precision word both programs carry. -/
def tiny : EReal := Ideal.ofBits .f32 0x2B8CBCCC#32

/-- The leaky rectifier: z where z ≥ 0, slope · z elsewhere. -/
def lrelu (z : EReal) : EReal :=
  Scalar.select (Ideal.cmp .oge z (Ideal.ofBits .f32 0x00000000#32)) z (slope * z)

/-- Entry q of a row times a 128 × 128 matrix whose first index is the contracted one. -/
def lin (w : (⟨2, ![128, 128]⟩ : Shape).Idx → EReal) (x : Fin 128 → EReal) (q : Fin 128) : EReal :=
  ∑ c : Fin 128, x c * w (ix2 c q)

/-- The node's update before normalisation. -/
def upd (ws wn : (⟨2, ![128, 128]⟩ : Shape).Idx → EReal) (x nm : Fin 128 → EReal) (q : Fin 128) : EReal :=
  lrelu (lin ws x q + lrelu (lin wn nm q))

/-- The length of a row, floored at `tiny`. -/
def len (u : Fin 128 → EReal) : EReal := max (Ideal.sqrt (∑ k : Fin 128, u k * u k)) tiny

/-- The node's output row. -/
def node (ws wn : (⟨2, ![128, 128]⟩ : Shape).Idx → EReal) (x nm : Fin 128 → EReal) (q : Fin 128) : EReal :=
  Ideal.div (upd ws wn x nm q) (len (upd ws wn x nm))

/-- The whole output with the neighbour mean spelt as sum times reciprocal count: row p of `inv` holds 1 / count. -/
def nodesByReciprocal (x ss : (⟨2, ![50000, 128]⟩ : Shape).Idx → EReal) (inv : (⟨2, ![50000, 1]⟩ : Shape).Idx → EReal)
    (ws wn : (⟨2, ![128, 128]⟩ : Shape).Idx → EReal) : (⟨2, ![50000, 128]⟩ : Shape).Idx → EReal :=
  fun i => node ws wn (fun c => x (ix2 (i 0) c)) (fun c => ss (ix2 (i 0) c) * inv (ix2 (i 0) (0 : Fin 1))) (i 1)

/-- The whole output with the neighbour mean spelt as sum divided by count: row p of `cn` holds the count. -/
def nodesByQuotient (x ss : (⟨2, ![50000, 128]⟩ : Shape).Idx → EReal) (cn : (⟨2, ![50000, 1]⟩ : Shape).Idx → EReal)
    (ws wn : (⟨2, ![128, 128]⟩ : Shape).Idx → EReal) : (⟨2, ![50000, 128]⟩ : Shape).Idx → EReal :=
  fun i => node ws wn (fun c => x (ix2 (i 0) c)) (fun c => Ideal.div (ss (ix2 (i 0) c)) (cn (ix2 (i 0) (0 : Fin 1)))) (i 1)

/-- On the extended reals, any value times the reciprocal of a nonzero real is that value divided by the real. -/
theorem mul_reciprocal (s one : EReal) (h1 : one = 1) {n : ℝ} (hn : n ≠ 0) :
    s * Ideal.div one (n : EReal) = Ideal.div s (n : EReal) := by
  rw [Ideal.div_coe hn, Ideal.div_coe hn, h1, one_mul]

/-- The two spellings of the neighbour mean give one output when every count is a nonzero real and `inv` is its
    reciprocal. -/
theorem nodesByReciprocal_eq_nodesByQuotient (x ss : (⟨2, ![50000, 128]⟩ : Shape).Idx → EReal)
    (inv cn : (⟨2, ![50000, 1]⟩ : Shape).Idx → EReal) (ws wn : (⟨2, ![128, 128]⟩ : Shape).Idx → EReal) (one : EReal)
    (h1 : one = 1) (hinv : ∀ j, inv j = Ideal.div one (cn j))
    (hcn : ∀ p : Fin 50000, ∃ n : ℝ, n ≠ 0 ∧ cn (ix2 p (0 : Fin 1)) = (n : EReal)) :
    nodesByReciprocal x ss inv ws wn = nodesByQuotient x ss cn ws wn := by
  funext i
  obtain ⟨n, hn, hc⟩ := hcn (i 0)
  unfold nodesByReciprocal nodesByQuotient
  have e : (fun c : Fin 128 => ss (ix2 (i 0) c) * inv (ix2 (i 0) (0 : Fin 1)))
      = fun c : Fin 128 => Ideal.div (ss (ix2 (i 0) c)) (cn (ix2 (i 0) (0 : Fin 1))) := by
    funext c
    rw [hinv, hc]
    exact mul_reciprocal _ one h1 hn
  rw [e]

end GraphConv

end
-- ==== Proof.KernelIndex.lean ====
/-
  The printed index maps of the kernel's six windows, decided over its 50 grid points.
-/
import proofs.«154761_j28578712388014_2_alg».proof.Proof.Gen.KernelIdeal.Value
import proofs.«154761_j28578712388014_2_alg».proof.Proof.RowSpec
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx GraphConv

theorem origin : (![0, 0] : Fin 2 → Nat) = fun _ => 0 := funext fun a => by fin_cases a <;> rfl

/-- The printed index maps over the grid: the three row-blocked inputs move with the output down the rows, the weight
    matrices stay at block (0, 0), nothing moves along the columns, and the output's row block stays below 50. -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 49 :=
  (by decide +kernel : ∀ t : Fin grid0.N, _)

/-- Every row block of the result is some point's. -/
theorem index_onto : ∀ b : Fin 50, ∃ t : Fin cfg0.N, win0_5.index t = ![b.val, 0] :=
  (by decide +kernel : ∀ b : Fin 50, ∃ t : Fin grid0.N, win0_5.index t = ![b.val, 0])

end Cert.KernelIdeal.Whole

end
-- ==== Proof.KernelReads.lean ====
/-
  The blocks the kernel stages at a grid point, read off arbitrary arrays of the windows' shapes: rows 1000·t … 1000·t + 999
  of the three row-blocked inputs, both weight matrices whole; and, from them, entry (r, q) of block t of the node-by-node
  function of the five arrays.
-/
import proofs.«154761_j28578712388014_2_alg».proof.Proof.KernelIndex
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx GraphConv

section Reads
variable (t : Fin cfg0.N) (r : Fin 1000) (q : Fin 128)

/-- Row r of block t of a row-blocked [50000, 128] array (window 0's blocks) is the array's row at the output's row. -/
theorem rows0 (A : S50000x128.Idx → EReal) (k : Fin 128) :
    ((cfg0.win 0).blk t).view.read (Elt Ideal) A (ix2 r k)
      = A (ix2 ((((cfg0.win 5).blk t).view.emb (ix2 r q)) 0) k) := by
  obtain ⟨e0, e1, -⟩ := index_maps t
  show A (((cfg0.win 0).blk t).view.emb (ix2 r k)) = _
  refine congrArg A (funext fun a => Fin.ext ?_)
  match a with
  | ⟨0, _⟩ => show win0_0.index t (0 : Fin 2) * 1000 + 1 * r.val = win0_5.index t (0 : Fin 2) * 1000 + 1 * r.val; omega
  | ⟨1, _⟩ => show win0_0.index t (1 : Fin 2) * 128 + 1 * k.val = k.val; omega

/-- The same for window 1's blocks. -/
theorem rows1 (A : S50000x128.Idx → EReal) (k : Fin 128) :
    ((cfg0.win 1).blk t).view.read (Elt Ideal) A (ix2 r k)
      = A (ix2 ((((cfg0.win 5).blk t).view.emb (ix2 r q)) 0) k) := by
  obtain ⟨-, -, e0, e1, -⟩ := index_maps t
  show A (((cfg0.win 1).blk t).view.emb (ix2 r k)) = _
  refine congrArg A (funext fun a => Fin.ext ?_)
  match a with
  | ⟨0, _⟩ => show win0_1.index t (0 : Fin 2) * 1000 + 1 * r.val = win0_5.index t (0 : Fin 2) * 1000 + 1 * r.val; omega
  | ⟨1, _⟩ => show win0_1.index t (1 : Fin 2) * 128 + 1 * k.val = k.val; omega

/-- Entry r of block t of a [50000, 1] column (window 2's blocks) is the column's entry at the output's row. -/
theorem column2 (A : S50000x1.Idx → EReal) :
    ((cfg0.win 2).blk t).view.read (Elt Ideal) A (ix2 r (0 : Fin 1))
      = A (ix2 ((((cfg0.win 5).blk t).view.emb (ix2 r q)) 0) (0 : Fin 1)) := by
  obtain ⟨-, -, -, -, e0, e1, -⟩ := index_maps t
  show A (((cfg0.win 2).blk t).view.emb (ix2 r (0 : Fin 1))) = _
  refine congrArg A (funext fun a => Fin.ext ?_)
  match a with
  | ⟨0, _⟩ => show win0_2.index t (0 : Fin 2) * 1000 + 1 * r.val = win0_5.index t (0 : Fin 2) * 1000 + 1 * r.val; omega
  | ⟨1, _⟩ => show win0_2.index t (1 : Fin 2) * 1 + 1 * 0 = 0; omega

/-- Window 3's block is the whole [128, 128] array. -/
theorem whole3 (A : S128x128.Idx → EReal) : ((cfg0.win 3).blk t).view.read (Elt Ideal) A = A := by
  obtain ⟨-, -, -, -, -, -, e0, e1, -⟩ := index_maps t
  funext y
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is the whole [128, 128] array. -/
theorem whole4 (A : S128x128.Idx → EReal) : ((cfg0.win 4).blk t).view.read (Elt Ideal) A = A := by
  obtain ⟨-, -, -, -, -, -, -, -, e0, e1, -⟩ := index_maps t
  funext y
  show A (((cfg0.win 4).blk t).view.emb y) = A y
  refine congrArg A (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The output's column at entry (r, q) of block t is q. -/
theorem out_column : ((((cfg0.win 5).blk t).view.emb (ix2 r q)) 1 : Fin 128) = q := by
  obtain ⟨-, -, -, -, -, -, -, -, -, -, e1, -⟩ := index_maps t
  apply Fin.ext
  show win0_5.index t (1 : Fin 2) * 128 + 1 * q.val = q.val
  omega

/-- ENTRY (r, q) OF BLOCK t: the node's output computed from the staged blocks is the node-by-node function of the whole
    arrays at the entry's place in the result. -/
theorem block_entry (A0 A1 : S50000x128.Idx → EReal) (A2 : S50000x1.Idx → EReal) (A3 A4 : S128x128.Idx → EReal) :
    node (((cfg0.win 3).blk t).view.read (Elt Ideal) A3) (((cfg0.win 4).blk t).view.read (Elt Ideal) A4)
        (fun k => ((cfg0.win 0).blk t).view.read (Elt Ideal) A0 (ix2 r k))
        (fun k => @HMul.hMul EReal EReal EReal instHMul (((cfg0.win 1).blk t).view.read (Elt Ideal) A1 (ix2 r k))
          (((cfg0.win 2).blk t).view.read (Elt Ideal) A2 (ix2 r (0 : Fin 1)))) q
      = nodesByReciprocal A0 A1 A2 A3 A4 (((cfg0.win 5).blk t).view.emb (ix2 r q)) := by
  unfold nodesByReciprocal
  have h0 : (fun k : Fin 128 => ((cfg0.win 0).blk t).view.read (Elt Ideal) A0 (ix2 r k))
      = fun k : Fin 128 => A0 (ix2 ((((cfg0.win 5).blk t).view.emb (ix2 r q)) 0) k) := funext (rows0 t r q A0)
  have h1 : (fun k : Fin 128 => @HMul.hMul EReal EReal EReal instHMul (((cfg0.win 1).blk t).view.read (Elt Ideal) A1 (ix2 r k))
        (((cfg0.win 2).blk t).view.read (Elt Ideal) A2 (ix2 r (0 : Fin 1))))
      = fun k : Fin 128 => A1 (ix2 ((((cfg0.win 5).blk t).view.emb (ix2 r q)) 0) k)
        * A2 (ix2 ((((cfg0.win 5).blk t).view.emb (ix2 r q)) 0) (0 : Fin 1)) :=
    funext fun k => by rw [rows1 t r q A1, column2 t r q A2]
  rw [whole3 t A3, whole4 t A4, out_column t r q, h0, h1]

end Reads

end Cert.KernelIdeal.Whole

end
-- ==== Proof.KernelCover.lean ====
/-
  The 50 row blocks of the kernel's result cover its 50000 rows: row i is in block i / 1000.
-/
import proofs.«154761_j28578712388014_2_alg».proof.Proof.KernelIndex
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx GraphConv

/-! ## The cover -/

/-- An index of the result is in point t's block iff each coordinate is in the block's range on its axis. -/
theorem mem_block (t : Fin cfg0.N) (i : S50000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v34).slice (win0_5.rect t)).set ↔ _
  rw [View.set_slice_whole, Rect.mem_set_unit]
  exact Iff.rfl

/-- Every index of the result is in some point's block: row i₀ is in block i₀ / 1000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

end Cert.KernelIdeal.Whole

end
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.LibLaneReads.lean ====
/-
  General reads at an entry, on the extended reals and at arbitrary sizes:
  * a lane sum and a lane maximum of an [a, n] block at row p, as the sum and the maximum (from −∞) of the row's entries;
  * a product against a TRANSPOSED right operand, into the zero accumulator (the vector spelling) and as the array
    spelling's dot-general, at entry (a, b): Σ_c A(a, c) · B(b, c);
  * the array spelling's sum of a whole array into a scalar: the initial value plus the sum of all entries;
  * a sum over the index type of a vector as the sum over its entries' positions;
  * n copies of a real number add up to n times it, also inside the extended reals (which are not a semiring).
-/
import proofs.«154761_j28578712388014_2_alg».proof.Proof.LibPlainMatmul
import Idealize.ShloMosaic.Lib.ValueIdx
import Idealize.ShloMosaic.Lib.Pipeline.Value
import Idealize.ShloMosaic.Lib.KernelVsHost
import Idealize.ShloMosaic.PureOps.Ideal.Laws

noncomputable section

namespace Cert.Proof.LibLaneReads

open Idealize.ShloMosaic Idealize.ShloMosaic.ValueIdx

/-- A lane sum of an [a, n] block at row p is the sum of that row's entries. -/
theorem laneSum_apply {a n : ℕ} (v : FVec Ideal ⟨2, ![a, n]⟩ .f32) (hr : (⟨2, ![a, n]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 hr hφ hacc (ix1 p) = ∑ k : Fin n, v (ix2 p k) := by
  refine (Ideal.multiReduction_add_single v _ hr hφ hacc (ix1 p)).trans ?_
  show ∑ k : Fin n, v (hr.lift (ix1 p) k) = ∑ k : Fin n, v (ix2 p k)
  refine Finset.sum_congr rfl fun k _ => congrArg v (funext fun ax => Fin.ext ?_)
  match ax with
  | ⟨0, _⟩ => rfl
  | ⟨1, _⟩ => rfl

/-- A lane maximum of an [a, n] block at row p is the maximum, from −∞, of that row's entries. -/
theorem laneMax_apply {a n : ℕ} (v : FVec Ideal ⟨2, ![a, n]⟩ .f32) (hr : (⟨2, ![a, n]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 hr hφ hacc (ix1 p)
      = (Finset.univ : Finset (Fin n)).fold max (Ideal.ofBits .f32 0xFF800000#32) (fun k => v (ix2 p k)) := by
  refine (Ideal.multiReduction_maximumf_single v _ hr hφ hacc (ix1 p)).trans ?_
  show (Finset.univ : Finset (Fin n)).fold max (Ideal.ofBits .f32 0xFF800000#32) (v ∘ hr.lift (ix1 p)) = _
  refine congrArg (fun g => (Finset.univ : Finset (Fin n)).fold max (Ideal.ofBits .f32 0xFF800000#32) g) (funext fun k => ?_)
  refine congrArg v (funext fun ax => Fin.ext ?_)
  match ax with
  | ⟨0, _⟩ => rfl
  | ⟨1, _⟩ => rfl

/-- A product against a transposed right operand, into the zero accumulator, at entry (a, b): Σ_c A(a, c) · B(b, c). -/
theorem matmulT_apply {m k n : ℕ} {φ₁ φ₂ : FTy} (A : FVec Ideal ⟨2, ![m, k]⟩ φ₁) (B : FVec Ideal ⟨2, ![n, k]⟩ φ₂)
    (ht : (⟨2, ![n, k]⟩ : Shape).Transposes [1, 0] ⟨2, ![k, n]⟩)
    (d : DotDims ⟨2, ![m, k]⟩ ⟨2, ![k, n]⟩ ⟨2, ![m, n]⟩) (hd : d = DotDims.plain m k n) (a : Fin m) (b : Fin n) :
    matmul (F := Ideal) d none A (transpose ⟨2, ![k, n]⟩ [1, 0] B ht) (constant (F := Ideal) ⟨2, ![m, n]⟩ .f32 0x00000000#32) (ix2 a b)
      = ∑ c : Fin k, A (ix2 a c) * B (ix2 b c) := by
  subst hd
  rw [Cert.Proof.LibPlainMatmul.matmul_plain_zero_apply]
  refine Finset.sum_congr rfl fun c _ => congrArg (A (ix2 a c) * ·) ?_
  exact transpose_apply [1, 0] B ht (ix2 c b) (ix2 b c) (fun ax => match ax with
    | ⟨0, _⟩ => rfl
    | ⟨1, _⟩ => rfl)

/-- The same product in the host's spelling. -/
theorem dotT_apply {m k n : ℕ} {φ₁ φ₂ : FTy} (A : FVec Ideal ⟨2, ![m, k]⟩ φ₁) (B : FVec Ideal ⟨2, ![n, k]⟩ φ₂)
    (ht : (⟨2, ![n, k]⟩ : Shape).Transposes [1, 0] ⟨2, ![k, n]⟩)
    (d : DotDims ⟨2, ![m, k]⟩ ⟨2, ![k, n]⟩ ⟨2, ![m, n]⟩) (hd : d = DotDims.plain m k n) (a : Fin m) (b : Fin n) :
    Host.dotGeneral (F := Ideal) d none A (transpose ⟨2, ![k, n]⟩ [1, 0] B ht) (ix2 a b)
      = ∑ c : Fin k, A (ix2 a c) * B (ix2 b c) := by
  rw [← matmul_zero_eq_dotGeneral]
  exact matmulT_apply A B ht d hd a b

/-- The array spelling's sum of a whole array into a scalar: the initial value plus the sum of all entries. -/
theorem hostTotal_apply {s : Shape} {axes : List (Fin s.rank)} (h' : s.ReducesTo axes ⟨0, ![]⟩)
    (hu : 0 < (⟨0, ![]⟩ : Shape).numel) (X : s.Idx → EReal) (z : (⟨0, ![]⟩ : Shape).Idx → EReal) (j : (⟨0, ![]⟩ : Shape).Idx) :
    Host.reduceAdd (F := Ideal) (φ := .f32) X z h' hu j = z (Shape.Idx.first hu) + ∑ i : s.Idx, X i := by
  simp only [Host.reduceAdd, Ideal.hostReduceAdd_def]
  exact Ideal.hostReduceAdd_total h' (fun b => b.elim0) X _ j

/-- A sum over the indices of a vector is the sum over its entries' positions. -/
theorem sum_idx1 {M : Type*} [AddCommMonoid M] {n : ℕ} (f : (⟨1, ![n]⟩ : Shape).Idx → M) :
    ∑ i, f i = ∑ k : Fin n, f (ix1 k) :=
  Fintype.sum_equiv ⟨fun i => (i 0 : Fin n), ix1, fun i => (eq_ix1 i).symm, fun _ => rfl⟩ _ _ (fun i => congrArg f (eq_ix1 i))

/-- n copies of a real add up to n times it, also inside the extended reals. -/
theorem nsmul_coe (n : ℕ) (r : ℝ) : n • (r : EReal) = ((n * r : ℝ) : EReal) := by
  induction n with
  | zero => simp
  | succ k ih =>
    rw [succ_nsmul, ih, ← EReal.coe_add]
    refine congrArg (fun z : ℝ => (z : EReal)) ?_
    push_cast; ring

end Cert.Proof.LibLaneReads

end
-- ==== Proof.LibColumnAndUnitAxis.lean ====
import Idealize.ShloMosaic.Lib.ValueIdx
import Idealize.ShloMosaic.Lib.Pipeline.Value

/-!
Four layout operations read at an index given by coordinates.

A column `[a, 1]` broadcast to `[a, b]` reads, at `(p, c)`, the column's entry `(p, 0)`. A rank-3 array with a
middle axis of extent one, `[a, 1, b]`, seen as the matrix `[a, b]` reads, at `(p, c)`, the entry `(p, 0, c)`; and the
matrix seen as `[a, 1, b]` reads, at `(p, 0, c)`, the entry `(p, c)`: a reshape keeps the row-major position, and the
unit axis contributes nothing to it. A vector `[a]` seen as the column `[a, 1]` reads, at `(p, 0)`, its entry `p`.
-/

noncomputable section

namespace Cert.Proof.LibColumnAndUnitAxis

open Idealize.ShloMosaic Idealize.ShloMosaic.ValueIdx

variable {α : Type}

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array seen as the matrix `[a, b]` reads, at `(p, c)`, the entry `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, b]` matrix seen as `[a, 1, b]` reads, at `(p, 0, c)`, the entry `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (c : Fin b) :
    shapeCast ⟨3, ![a, 1, b]⟩ x h (ix3 p (0 : Fin 1) c) = x (ix2 p c) :=
  shapeCast_apply x h _ _ (by
    rw [Shape.rowMajor_val_three, Shape.rowMajor_val_two]
    show p.val * b + c.val = (p.val * 1 + 0) * b + c.val
    rw [Nat.mul_one, Nat.add_zero])

/-- An `[a]` vector seen as the column `[a, 1]` reads, at `(p, u)`, the entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Proof.LibColumnAndUnitAxis

end
-- ==== Proof.KernelBody.lean ====
/-
  What the kernel body stores, read at one entry.

  The body loads a block of 1000 node rows x, the matching block of neighbour sums ss, the matching column inv of
  reciprocal counts, and the two 128 × 128 weight matrices (contracted index first), and stores one block.  Entry (r, q)
  of the stored block is the output of node r of the block: its neighbour row is ss(r, ·) · inv(r), the two dense layers
  are products accumulated from zero (the narrowing of their operands changes no value on the extended reals), the
  rectifier is a comparison with zero and a select, the row's length a lane sum under a square root.
-/
import proofs.«154761_j28578712388014_2_alg».proof.Proof.Gen.KernelIdeal.Skeleton
import proofs.«154761_j28578712388014_2_alg».proof.Proof.RowSpec
import proofs.«154761_j28578712388014_2_alg».proof.Proof.LibPlainMatmul
import proofs.«154761_j28578712388014_2_alg».proof.Proof.LibLaneReads
import proofs.«154761_j28578712388014_2_alg».proof.Proof.LibColumnAndUnitAxis
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx GraphConv

/-! ## The stored value in stages -/

/-- The block of neighbour means: sums times the column of reciprocal counts repeated along the row. -/
def meanBlock (x1 : Vec Ideal S1000x128 .f32) (x2 : Vec Ideal S1000x1 .f32) : FVec Ideal S1000x128 .f32 :=
  mulf (shapeCast S1000x128 x1 shapeCasts_S1000x128_S1000x128)
    (broadcastTo S1000x128 (shapeCast S1000x1 x2 shapeCasts_S1000x1_S1000x1) broadcasts_S1000x1_S1000x128)

/-- A dense layer on the block: the block times a weight matrix, accumulated from zero. -/
def denseBlock (a : FVec Ideal S1000x128 .f32) (w : Vec Ideal S128x128 .f32) : FVec Ideal S1000x128 .f32 :=
  matmul dot_S1000x128_S128x128_S1000x128_1_0_0_1_n_n none (truncf .bf16 a bitsLt_bf16_f32)
    (truncf .bf16 (shapeCast S128x128 w shapeCasts_S128x128_S128x128) bitsLt_bf16_f32)
    (constant S1000x128 .f32 0x00000000#32)

/-- The leaky rectifier on the block, as the body spells it. -/
def leakyBlock (v : FVec Ideal S1000x128 .f32) : FVec Ideal S1000x128 .f32 :=
  select (cmpf .oge v (broadcast S1000x128 (Scalar.ofBits .f32 0x00000000#32))) v
    (mulf (broadcast S1000x128 (Scalar.ofBits .f32 0x3E4CCCCD#32)) v)

/-- The block of updates before normalisation. -/
def updBlock (x0 x1 : Vec Ideal S1000x128 .f32) (x2 : Vec Ideal S1000x1 .f32) (x3 x4 : Vec Ideal S128x128 .f32) :
    FVec Ideal S1000x128 .f32 :=
  leakyBlock (addf (denseBlock x0 x3) (leakyBlock (denseBlock (meanBlock x1 x2) x4)))

/-- Each row's floored length, repeated along the row. -/
def lenBlock (u : FVec Ideal S1000x128 .f32) : FVec Ideal S1000x128 .f32 :=
  broadcastTo S1000x128
    (maximumf
      (sqrt (shapeCast S1000x1
        (multiReduction .add [1] S1000 (mulf u u) 0x00000000#32 reduces_S1000x128_S1000 (.inl rfl) rfl)
        shapeCasts_S1000_S1000x1))
      (broadcast S1000x1 (Scalar.ofBits .f32 0x2B8CBCCC#32)))
    broadcasts_S1000x1_S1000x128

/-- The stored value is the block of updates divided by the block of lengths. -/
theorem pay_eq (x0 x1 : Vec Ideal S1000x128 .f32) (x2 : Vec Ideal S1000x1 .f32) (x3 x4 : Vec Ideal S128x128 .f32) :
    k0_pay1 (F := Ideal) x0 x1 x2 x3 x4 = divf (updBlock x0 x1 x2 x3 x4) (lenBlock (updBlock x0 x1 x2 x3 x4)) := rfl

/-! ## Each stage at an entry -/

theorem meanBlock_apply (x1 : Vec Ideal S1000x128 .f32) (x2 : Vec Ideal S1000x1 .f32) (r : Fin 1000) (c : Fin 128) :
    meanBlock x1 x2 (ix2 r c) = x1 (ix2 r c) * x2 (ix2 r (0 : Fin 1)) := by
  show (shapeCast S1000x128 x1 shapeCasts_S1000x128_S1000x128) (ix2 r c)
      * broadcastTo S1000x128 (shapeCast S1000x1 x2 shapeCasts_S1000x1_S1000x1) broadcasts_S1000x1_S1000x128 (ix2 r c) = _
  rw [shapeCast_self, Cert.Proof.LibColumnAndUnitAxis.broadcastTo_a1_ab_apply, shapeCast_self]

theorem denseBlock_apply (a : FVec Ideal S1000x128 .f32) (w : Vec Ideal S128x128 .f32) (r : Fin 1000) (q : Fin 128) :
    denseBlock a w (ix2 r q) = lin w (fun c => a (ix2 r c)) q := by
  refine (Cert.Proof.LibPlainMatmul.matmul_plain_zero_apply none _ _ r q).trans ?_
  refine Finset.sum_congr rfl fun c _ => ?_
  show a (ix2 r c) * (shapeCast S128x128 w shapeCasts_S128x128_S128x128) (ix2 c q) = a (ix2 r c) * w (ix2 c q)
  rw [shapeCast_self]

theorem leakyBlock_apply (v : FVec Ideal S1000x128 .f32) (i : S1000x128.Idx) : leakyBlock v i = lrelu (v i) := rfl

theorem updBlock_apply (x0 x1 : Vec Ideal S1000x128 .f32) (x2 : Vec Ideal S1000x1 .f32) (x3 x4 : Vec Ideal S128x128 .f32)
    (r : Fin 1000) (q : Fin 128) :
    updBlock x0 x1 x2 x3 x4 (ix2 r q)
      = upd x3 x4 (fun c => x0 (ix2 r c)) (fun c => x1 (ix2 r c) * x2 (ix2 r (0 : Fin 1))) q := by
  show lrelu (denseBlock x0 x3 (ix2 r q) + lrelu (denseBlock (meanBlock x1 x2) x4 (ix2 r q))) = _
  rw [denseBlock_apply, denseBlock_apply]
  simp only [meanBlock_apply]
  rfl

theorem lenBlock_apply (u : FVec Ideal S1000x128 .f32) (r : Fin 1000) (q : Fin 128) :
    lenBlock u (ix2 r q) = len (fun k => u (ix2 r k)) := by
  unfold lenBlock
  rw [Cert.Proof.LibColumnAndUnitAxis.broadcastTo_a1_ab_apply]
  show max (Ideal.sqrt ((shapeCast S1000x1
        (multiReduction .add [1] S1000 (mulf u u) 0x00000000#32 reduces_S1000x128_S1000 (.inl rfl) rfl)
        shapeCasts_S1000_S1000x1) (ix2 r (0 : Fin 1)))) tiny = _
  rw [Cert.Proof.LibColumnAndUnitAxis.shapeCast_a_a1_apply]
  exact congrArg (fun z => max (Ideal.sqrt z) tiny)
    (Cert.Proof.LibLaneReads.laneSum_apply (mulf u u) reduces_S1000x128_S1000 (.inl rfl) rfl r)

/-- ENTRY (r, q) OF THE STORED BLOCK is the output of node r of the block. -/
theorem pay_apply (x0 x1 : Vec Ideal S1000x128 .f32) (x2 : Vec Ideal S1000x1 .f32) (x3 x4 : Vec Ideal S128x128 .f32)
    (r : Fin 1000) (q : Fin 128) :
    k0_pay1 (F := Ideal) x0 x1 x2 x3 x4 (ix2 r q)
      = node x3 x4 (fun c => x0 (ix2 r c)) (fun c => x1 (ix2 r c) * x2 (ix2 r (0 : Fin 1))) q := by
  rw [pay_eq]
  show Ideal.div (updBlock x0 x1 x2 x3 x4 (ix2 r q)) (lenBlock (updBlock x0 x1 x2 x3 x4) (ix2 r q)) = _
  rw [lenBlock_apply, updBlock_apply]
  simp only [updBlock_apply]
  rfl

end Cert.KernelIdeal.Body

end
-- ==== Proof.KernelValue.lean ====
/-
  The kernel's result array, whole.

  Entry y of what grid point t writes back is the output of a node of the staged blocks, which is the node-by-node
  function of the five arrays (as the region finds them) at the entry's place in the result; the 50 blocks cover the
  result, so after the run the result IS that function of the arrays.
-/
import proofs.«154761_j28578712388014_2_alg».proof.Proof.KernelReads
import proofs.«154761_j28578712388014_2_alg».proof.Proof.KernelCover
import proofs.«154761_j28578712388014_2_alg».proof.Proof.KernelBody
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx GraphConv

/-- ENTRY y OF WHAT A POINT STORES, from blocks read off arbitrary arrays of the windows' shapes, is the node-by-node
    function of the arrays at the entry's place in the result. -/
theorem stored_entry (A0 A1 : S50000x128.Idx → EReal) (A2 : S50000x1.Idx → EReal) (A3 A4 : S128x128.Idx → EReal)
    (t : Fin cfg0.N) (y : S1000x128.Idx) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) y
      = nodesByReciprocal A0 A1 A2 A3 A4 (((cfg0.win 5).blk t).view.emb y) := by
  obtain ⟨r, q, rfl⟩ : ∃ (r : Fin 1000) (q : Fin 128), y = ix2 r q := ⟨y 0, y 1, eq_ix2 y⟩
  exact (Cert.KernelIdeal.Body.pay_apply _ _ _ _ _ r q).trans (block_entry t r q A0 A1 A2 A3 A4)

variable (m : (ℓ : Loc nD τ sig) → Buf (Elt Ideal) ℓ) (ρ : Dev nD → PrngReg)

/-- A window's block at a point is the read of the window's array through the block. -/
theorem staged0 (c : Dev nD) (t : Fin cfg0.N) : iblk m c 0 t = ((cfg0.win 0).blk t).view.read (Elt Ideal) (V m c main_arg0) := rfl
theorem staged1 (c : Dev nD) (t : Fin cfg0.N) : iblk m c 1 t = ((cfg0.win 1).blk t).view.read (Elt Ideal) (V m c main_v18) := rfl
theorem staged2 (c : Dev nD) (t : Fin cfg0.N) : iblk m c 2 t = ((cfg0.win 2).blk t).view.read (Elt Ideal) (V m c main_v31) := rfl
theorem staged3 (c : Dev nD) (t : Fin cfg0.N) : iblk m c 3 t = ((cfg0.win 3).blk t).view.read (Elt Ideal) (V m c main_v32) := rfl
theorem staged4 (c : Dev nD) (t : Fin cfg0.N) : iblk m c 4 t = ((cfg0.win 4).blk t).view.read (Elt Ideal) (V m c main_v33) := rfl

/-- WHAT POINT t WRITES BACK is block t of the node-by-node function of the arrays as the region finds them. -/
theorem flushed_eq (c : Dev nD) (t : Fin cfg0.N) :
    (dats m 0 c).flushed 5 t = ((cfg0.win 5).blk t).view.read (Elt Ideal)
      (nodesByReciprocal (V m c main_arg0) (V m c main_v18) (V m c main_v31) (V m c main_v32) (V m c main_v33)) := by
  show (cfg0.win 5).cut (grid0.coords t) ((dats m 0 c).after 5 t) = _
  rw [after0_5]
  unfold out0_5
  rw [View.canon_unit_zero origin]
  simp only [View.ld_unit_zero (S := S1000x128) origin, View.ld_unit_zero (S := S1000x1) origin,
    View.ld_unit_zero (S := S128x128) origin]
  rw [staged0, staged1, staged2, staged3, staged4]
  generalize V m c main_arg0 = A0
  generalize V m c main_v18 = A1
  generalize V m c main_v31 = A2
  generalize V m c main_v32 = A3
  generalize V m c main_v33 = A4
  funext j
  exact stored_entry A0 A1 A2 A3 A4 t j

/-- THE RESULT ARRAY after the run is the node-by-node function of the arrays as the region finds them. -/
theorem final (c : Dev nD) :
    (dats m 0 c).arrAt 5 cfg0.N
      = nodesByReciprocal (V m c main_arg0) (V m c main_v18) (V m c main_v31) (V m c main_v32) (V m c main_v33) :=
  (dats m 0 c).arrAt_eq_of_cover 5 _ (fun t _ => flushed_eq m c t) covered

/-- The kernel's run with the result array named. -/
theorem run : θ_run defs (onTc (τ := τ) (main (F := Ideal))) ⟨m, fun _ => 0, ρ⟩ fun r => ∀ c : Dev nD,
      r.2.mem ((c : Thread nD τ).loc main_v34)
        = nodesByReciprocal (V m c main_arg0) (V m c main_v18) (V m c main_v31) (V m c main_v32) (V m c main_v33)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefRun.lean ====
/-
  The reference program's run, read back.

  The reference is a straight line of host operations once the three helpers it calls (the leaky rectifier, called
  twice, its select, and the row norm) are written out at their call sites over the buffers each call names.  Listed in
  order, the line's run ends with every buffer at the fold of the operations over the launch contents; at the result
  buffer that fold is one function of the four arrays the program reads: the per-node sums of gathered neighbour rows
  and the per-node edge counts (two accumulating scatters), the quotient of the two with the count floored at one, the
  two dense layers with the leaky rectifier between and after them, and the division of every row by its length floored
  at 1e-12.
-/
import proofs.«154761_j28578712388014_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The pieces of the result, as functions of arrays -/

/-- Row 0 (`r = 0`, the destinations) or row 1 (the sources) of the edge table, as a vector of 800000 words. -/
def endpoints (r : Nat) (h : S2x800000.Slices ![r, 0] S1x800000) (e : IVec S2x800000 32) : IVec S800000 32 :=
  shapeCast S800000 (extractStridedSlice S1x800000 ![r, 0] e h) shapeCasts_S1x800000_S800000

/-- A vector of words with the negative ones moved up by 50000 (a negative position counted from the end). -/
def wrapNeg (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- Per node, the sum of the feature rows of the sources of the edges whose destination word is that node. -/
def neighbourSum (x : FVec F S50000x128 .f32) (dst src : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0 src))

/-- Per node, the number of edges whose destination word is that node, floored at one. -/
def flooredCount (dst : IVec S800000 32) : FVec F S50000x1 .f32 :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 dst)
      (broadcastInDim S800000x1 ![] bcast_S_S800000x1 (constant S_ .f32 0x3F800000#32)))
    (broadcastInDim S50000x1 ![] bcast_S_S50000x1 (constant S_ .f32 0x3F800000#32))

/-- The leaky rectifier of slope 0.2 on a whole array, as the helper spells it. -/
def leaky (v : FVec F S50000x128 .f32) : FVec F S50000x128 .f32 :=
  select (cmpf .oge v (broadcastInDim S50000x128 ![] bcast_S_S50000x128 (constant S_ .f32 0x00000000#32))) v
    (mulf (broadcastInDim S50000x128 ![] bcast_S_S50000x128 (id (constant S_ .f32 0x3E4CCCCD#32))) v)

/-- A dense layer: the array times a weight matrix given with the contracted index first. -/
def dense (a : FVec F S50000x128 .f32) (w : FVec F S128x128 .f32) : FVec F S50000x128 .f32 :=
  Host.dotGeneral dot_S50000x128_S128x128_S50000x128_1_0_0_1_n_n none a w

/-- The update before normalisation: rectified own layer plus rectified layer of the neighbour mean. -/
def updated (x ss : FVec F S50000x128 .f32) (cn : FVec F S50000x1 .f32) (ws wn : FVec F S128x128 .f32) : FVec F S50000x128 .f32 :=
  leaky (addf (dense x ws)
    (leaky (dense (Host.divf ss (broadcastInDim S50000x128 ![0, 1] bcast_S50000x1_S50000x128_0_1 cn)) wn)))

/-- Every row divided by its length floored at 1e-12. -/
def normalised (u : FVec F S50000x128 .f32) : FVec F S50000x128 .f32 :=
  Host.divf u (broadcastInDim S50000x128 ![0, 1] bcast_S50000x1_S50000x128_0_1
    (maximumf
      (Host.sqrt (broadcastInDim S50000x1 ![0] bcast_S50000_S50000x1_0
        (Host.reduceAdd (mulf u u) (constant S_ .f32 0x00000000#32) reducesTo_S50000x128_S50000_d1 h_S_)))
      (broadcastInDim S50000x1 ![] bcast_S_S50000x1 (constant S_ .f32 0x2B8CBCCC#32))))

/-- The reference's result as one function of the node features, the edge table and the two weight matrices. -/
def result (x : FVec F S50000x128 .f32) (e : IVec S2x800000 32) (w3 w4 : FVec F S128x128 .f32) : FVec F S50000x128 .f32 :=
  normalised (updated x
    (neighbourSum x (endpoints 0 slices_S2x800000_S1x800000_0_0 e) (wrapNeg (endpoints 1 slices_S2x800000_S1x800000_1_0 e)))
    (flooredCount (endpoints 0 slices_S2x800000_S1x800000_0_0 e))
    (transpose S128x128 [1, 0] w3 transposes_S128x128_S128x128_1_0)
    (transpose S128x128 [1, 0] w4 transposes_S128x128_S128x128_1_0))

/-! ## The program as a list of operations -/

/-- The program's 59 operations, in order, the helpers' written out at their calls. -/
abbrev ops : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    unary main_arg3 main_v4 (transpose S128x128 [1, 0] · transposes_S128x128_S128x128_1_0),
    binary main_arg0 main_v4 main_v5 (fun l r => Host.dotGeneral dot_S50000x128_S128x128_S50000x128_1_0_0_1_n_n none l r),
    nullary main_c (constantI S_ 32 0#32),
    unary main_c main_v6 (broadcastInDim S800000 ![] bcast_S_S800000),
    binary main_v3 main_v6 main_v7 (cmpi .slt),
    nullary main_c_0 (constantI S_ 32 50000#32),
    unary main_c_0 main_v8 (broadcastInDim S800000 ![] bcast_S_S800000),
    binary main_v3 main_v8 main_v9 addi,
    ternary main_v7 main_v9 main_v3 main_v10 select,
    unary main_v10 main_v11 (broadcastInDim S800000x1 ![0] bcast_S800000_S800000x1_0),
    binary main_arg0 main_v11 main_v12 (fun x i => Host.gather gather_S50000x128_S800000x1_S800000x128_1_0_n_n_0_1_1128 x i),
    nullary main_cst (constant S_ .f32 0x00000000#32),
    unary main_cst main_v13 (broadcastInDim S50000x128 ![] bcast_S_S50000x128),
    unary main_v1 main_v14 (broadcastInDim S800000x1 ![0] bcast_S800000_S800000x1_0),
    ternary main_v13 main_v14 main_v12 main_v15 (fun x i u => Host.scatterAdd scatter_S50000x128_S800000x1_S800000x128_1_0_0_1 x i u),
    nullary main_cst_1 (constant S_ .f32 0x3F800000#32),
    unary main_cst_1 main_v16 (broadcastInDim S800000x1 ![] bcast_S_S800000x1),
    nullary main_cst_2 (constant S_ .f32 0x00000000#32),
    unary main_cst_2 main_v17 (broadcastInDim S50000x1 ![] bcast_S_S50000x1),
    unary main_v1 main_v18 (broadcastInDim S800000x1 ![0] bcast_S800000_S800000x1_0),
    ternary main_v17 main_v18 main_v16 main_v19 (fun x i u => Host.scatterAdd scatter_S50000x1_S800000x1_S800000x1_1_0_0_1 x i u),
    nullary main_cst_3 (constant S_ .f32 0x3F800000#32),
    unary main_cst_3 main_v20 (broadcastInDim S50000x1 ![] bcast_S_S50000x1),
    binary main_v19 main_v20 main_v21 maximumf,
    unary main_v21 main_v22 (broadcastInDim S50000x128 ![0, 1] bcast_S50000x1_S50000x128_0_1),
    binary main_v15 main_v22 main_v23 Host.divf,
    unary main_arg4 main_v24 (transpose S128x128 [1, 0] · transposes_S128x128_S128x128_1_0),
    binary main_v23 main_v24 main_v25 (fun l r => Host.dotGeneral dot_S50000x128_S128x128_S50000x128_1_0_0_1_n_n none l r),
    nullary main_cst_4 (constant S_ .f32 0x3E4CCCCD#32),
    TRef.nullary main_call0.cst (constant S_ .f32 0x00000000#32),
    TRef.unary main_call0.cst main_call0.v0 (broadcastInDim S50000x128 ![] bcast_S_S50000x128),
    TRef.binary (.of main_v25) main_call0.v0 main_call0.v1 (cmpf .oge),
    TRef.unary (.of main_cst_4) main_call0.v2 id,
    TRef.unary main_call0.v2 main_call0.v3 (broadcastInDim S50000x128 ![] bcast_S_S50000x128),
    TRef.binary main_call0.v3 (.of main_v25) main_call0.v4 mulf,
    TRef.ternary main_call0.v1 (.of main_v25) main_call0.v4 main_call0.call0.v0 select,
    binary main_v5 main_v26 main_v27 addf,
    nullary main_cst_5 (constant S_ .f32 0x3E4CCCCD#32),
    TRef.nullary main_call1.cst (constant S_ .f32 0x00000000#32),
    TRef.unary main_call1.cst main_call1.v0 (broadcastInDim S50000x128 ![] bcast_S_S50000x128),
    TRef.binary (.of main_v27) main_call1.v0 main_call1.v1 (cmpf .oge),
    TRef.unary (.of main_cst_5) main_call1.v2 id,
    TRef.unary main_call1.v2 main_call1.v3 (broadcastInDim S50000x128 ![] bcast_S_S50000x128),
    TRef.binary main_call1.v3 (.of main_v27) main_call1.v4 mulf,
    TRef.ternary main_call1.v1 (.of main_v27) main_call1.v4 main_call1.call0.v0 select,
    TRef.binary (.of main_v28) (.of main_v28) main_call2.v0 mulf,
    TRef.nullary main_call2.cst (constant S_ .f32 0x00000000#32),
    TRef.binary main_call2.v0 main_call2.cst main_call2.v1 (fun x v => Host.reduceAdd x v reducesTo_S50000x128_S50000_d1 h_S_),
    TRef.unary main_call2.v1 main_call2.v2 (broadcastInDim S50000x1 ![0] bcast_S50000_S50000x1_0),
    TRef.unary main_call2.v2 main_call2.v3 Host.sqrt,
    nullary main_cst_6 (constant S_ .f32 0x2B8CBCCC#32),
    unary main_cst_6 main_v30 (broadcastInDim S50000x1 ![] bcast_S_S50000x1),
    binary main_v29 main_v30 main_v31 maximumf,
    unary main_v31 main_v32 (broadcastInDim S50000x128 ![0, 1] bcast_S50000x1_S50000x128_0_1),
    binary main_v28 main_v32 main_v33 Host.divf ]

set_option maxRecDepth 2048 in
/-- The program is that straight line: the helpers unfolded at their calls and sequencing reassociated. -/
theorem main_eq (c : Dev nD) : main (F := F) c = seq ops := by
  simp only [main, fn_leaky_relu.body, fn_where.body, fn_norm.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every weakly fair execution terminates with each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The fold at the buffers the claims name -/

/-- At the result buffer the fold is `result` of the four arrays the program reads. -/
theorem fold_result (V : Valuation τ sig (Elt F)) :
    after ops V (Proc.devRef .tc main_v33)
      = result (V (Proc.devRef .tc main_arg0)) (V (Proc.devRef .tc main_arg1)) (V (Proc.devRef .tc main_arg3))
          (V (Proc.devRef .tc main_arg4)) := by
  after_results_simp
  rfl

theorem fold_arg0 (V : Valuation τ sig (Elt F)) : after ops V (Proc.devRef .tc main_arg0) = V (Proc.devRef .tc main_arg0) := by
  after_results_simp
theorem fold_arg1 (V : Valuation τ sig (Elt F)) : after ops V (Proc.devRef .tc main_arg1) = V (Proc.devRef .tc main_arg1) := by
  after_results_simp
theorem fold_arg2 (V : Valuation τ sig (Elt F)) : after ops V (Proc.devRef .tc main_arg2) = V (Proc.devRef .tc main_arg2) := by
  after_results_simp
theorem fold_arg3 (V : Valuation τ sig (Elt F)) : after ops V (Proc.devRef .tc main_arg3) = V (Proc.devRef .tc main_arg3) := by
  after_results_simp
theorem fold_arg4 (V : Valuation τ sig (Elt F)) : after ops V (Proc.devRef .tc main_arg4) = V (Proc.devRef .tc main_arg4) := by
  after_results_simp

/-- THE REFERENCE'S RUN: every weakly fair execution terminates with the result buffer at `result` of the launch contents
    of the arrays the program reads, and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
        = result (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v33).trans (fold_result _), (h c main_arg0).trans (fold_arg0 _),
      (h c main_arg1).trans (fold_arg1 _), (h c main_arg2).trans (fold_arg2 _), (h c main_arg3).trans (fold_arg3 _),
      (h c main_arg4).trans (fold_arg4 _)⟩)
    (run_fold m ρ)

end Cert.ReferenceIdeal.HandRun

end
-- ==== Proof.KernelHost.lean ====
/-
  What the kernel's program leaves in the five arrays its region stages.

  Before the region the program forms, on the host: the neighbour sums (a gather of source rows scattered, accumulating,
  onto destination nodes, both endpoint vectors with their negative words moved up by 50000), the column of reciprocals
  of the floored edge counts, and the two transposed weight matrices; the node features are staged as given.  Each is
  read off the fold of the host operations; the sums, the counts and the transposes are the same functions the
  reference's program applies.
-/
import proofs.«154761_j28578712388014_2_alg».proof.Proof.Gen.KernelIdeal.Frame
import proofs.«154761_j28578712388014_2_alg».proof.Proof.RefRun
import Idealize.ShloMosaic.Lib.StableHlo.Run
import Idealize.ShloMosaic.PureOps.Ideal

noncomputable section

namespace Cert.KernelIdeal.HostValues

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Row r of the edge table as the program reads it. -/
abbrev ends (r : Nat) (h : Cert.ReferenceIdeal.S2x800000.Slices ![r, 0] Cert.ReferenceIdeal.S1x800000) (c : Dev nD) :
    IVec Cert.ReferenceIdeal.S800000 32 :=
  Cert.ReferenceIdeal.HandRun.endpoints r h (m ((c : Thread nD τ).loc main_arg1))

/-- The staged neighbour sums. -/
theorem sums (c : Dev nD) :
    (V m c main_v18 : S50000x128.Idx → EReal)
      = Cert.ReferenceIdeal.HandRun.neighbourSum (F := Ideal) (m ((c : Thread nD τ).loc main_arg0))
          (Cert.ReferenceIdeal.HandRun.wrapNeg (ends m 0 Cert.ReferenceIdeal.Gen.slices_S2x800000_S1x800000_0_0 c))
          (Cert.ReferenceIdeal.HandRun.wrapNeg (ends m 1 Cert.ReferenceIdeal.Gen.slices_S2x800000_S1x800000_1_0 c)) := by
  dsimp only [Gen.V, Gen.hostOps0]
  after_results_simp
  rfl

/-- The staged column of reciprocals of the floored counts. -/
theorem reciprocals (c : Dev nD) :
    (V m c main_v31 : S50000x1.Idx → EReal)
      = Host.divf (F := Ideal) (broadcastInDim S50000x1 ![] bcast_S_S50000x1 (constant (F := Ideal) S_ .f32 0x3F800000#32))
          (Cert.ReferenceIdeal.HandRun.flooredCount (F := Ideal)
            (Cert.ReferenceIdeal.HandRun.wrapNeg (ends m 0 Cert.ReferenceIdeal.Gen.slices_S2x800000_S1x800000_0_0 c))) := by
  dsimp only [Gen.V, Gen.hostOps0]
  after_results_simp
  rfl

/-- The staged first weight matrix is the transpose of the first weight argument. -/
theorem weights_self (c : Dev nD) :
    (V m c main_v32 : S128x128.Idx → EReal)
      = transpose S128x128 [1, 0] (m ((c : Thread nD τ).loc main_arg3)) transposes_S128x128_S128x128_1_0 := by
  dsimp only [Gen.V, Gen.hostOps0]
  after_results_simp

/-- The staged second weight matrix is the transpose of the second weight argument. -/
theorem weights_neigh (c : Dev nD) :
    (V m c main_v33 : S128x128.Idx → EReal)
      = transpose S128x128 [1, 0] (m ((c : Thread nD τ).loc main_arg4)) transposes_S128x128_S128x128_1_0 := by
  dsimp only [Gen.V, Gen.hostOps0]
  after_results_simp

end Cert.KernelIdeal.HostValues

end
-- ==== Proof.LibPlainDot.lean ====
import Idealize.ShloMosaic.PureOps.Ideal.Laws
import Idealize.ShloMosaic.Lib.ValueLayout
import Idealize.ShloMosaic.Lib.ValueIdx

/-!
The host's `dot_general` of a plain matrix product (rows by contraction, times contraction by columns),
read at one entry at the ideal values: the sum over the contracted coordinate of the products of the two
operands' entries — whatever the sizes, whatever the operands' float formats, with no accumulator and no
order of summation left in it.
-/

noncomputable section

namespace Cert.Proof.LibPlainDot

open Idealize.ShloMosaic Idealize.ShloMosaic.ValueIdx

/-- The plain `m × k` by `k × n` host product, at entry `(a, b)`, is `∑ c, A (a, c) * B (c, b)`. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (F := Ideal) (DotDims.plain m k n) prec A B (ix2 a b)
      = ∑ c : Fin k, A (ix2 a c) * B (ix2 c b) := by
  simp only [Host.dotGeneral]
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.Proof.LibPlainDot

end
-- ==== Proof.LibHostReads.lean ====
/-
  Two more host operations on the extended reals, read at an entry, at arbitrary sizes.

  The host's division is, entry by entry, the division of the extended reals.  The host's sum of an m × q array along
  its rows, from an initial value, has at row e the initial value plus the sum of the row's q entries.
-/
import Idealize.ShloMosaic.Lib.ValueIdx
import Idealize.ShloMosaic.PureOps.Ideal.Laws

noncomputable section

open scoped BigOperators

namespace HostReads

open Idealize.ShloMosaic Idealize.ShloMosaic.ValueIdx

/-- The host's division at an entry. -/
theorem hostDivf_apply {s : Shape} (x y : FVec Ideal s .f32) (i : s.Idx) :
    Host.divf (F := Ideal) (φ := .f32) x y i = Ideal.div (x i) (y i) := rfl

/-- The host's sum along the rows at row e: the initial value plus the sum of the row's entries. -/
theorem hostRowSum_apply {m q : Nat} (h' : (⟨2, ![m, q]⟩ : Shape).ReducesTo [1] ⟨1, ![m]⟩)
    (h : (⟨2, ![m, q]⟩ : Shape).Reduces [1] ⟨1, ![m]⟩) (hu : 0 < (⟨0, ![]⟩ : Shape).numel)
    (X : (⟨2, ![m, q]⟩ : Shape).Idx → EReal) (z : (⟨0, ![]⟩ : Shape).Idx → EReal) (e : Fin m) :
    Host.reduceAdd (F := Ideal) (φ := .f32) X z h' hu (ix1 e) = z (Shape.Idx.first hu) + ∑ k : Fin q, X (ix2 e k) := by
  simp only [Host.reduceAdd, Ideal.hostReduceAdd_def]
  rw [Ideal.hostReduceAdd_single h' h]
  refine congrArg (_ + ·) ?_
  show ∑ k : Fin q, X (h.lift (ix1 e) k) = ∑ k : Fin q, X (ix2 e k)
  refine Finset.sum_congr rfl fun k _ => congrArg X (funext fun a => Fin.ext ?_)
  match a with
  | ⟨0, _⟩ => rfl
  | ⟨1, _⟩ => rfl

end HostReads

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.RefValue.lean ====
/-
  The reference's result, read at one entry.

  Entry (p, q) of the result is the output of node p: its feature row is row p of the node features, its neighbour row
  the neighbour sums of row p divided by the floored count of p, the weight matrices the transposes the program forms.
  Each host operation is read at an entry: a product of matrices is a sum over the contracted index, a broadcast reads its
  operand, the sum along a row is the initial zero plus the row's entries.
-/
import proofs.«154761_j28578712388014_2_alg».proof.Proof.RefRun
import proofs.«154761_j28578712388014_2_alg».proof.Proof.RowSpec
import proofs.«154761_j28578712388014_2_alg».proof.Proof.LibPlainDot
import proofs.«154761_j28578712388014_2_alg».proof.Proof.LibHostReads
import proofs.«154761_j28578712388014_2_alg».proof.Proof.LibBroadcasts
import Idealize.ShloMosaic.Lib.ValueIdx

noncomputable section

open scoped BigOperators

namespace Cert.ReferenceIdeal.HandValue

open Cert.ReferenceIdeal Cert.ReferenceIdeal.Gen Cert.ReferenceIdeal.HandRun Idealize.ShloMosaic Idealize.ShloMosaic.ValueIdx GraphConv

theorem dense_apply (a : FVec Ideal S50000x128 .f32) (w : FVec Ideal S128x128 .f32) (p : Fin 50000) (q : Fin 128) :
    dense (F := Ideal) a w (ix2 p q) = lin w (fun c => a (ix2 p c)) q :=
  Cert.Proof.LibPlainDot.dotGeneral_plain_apply none a w p q

theorem leaky_apply (v : FVec Ideal S50000x128 .f32) (i : S50000x128.Idx) : leaky (F := Ideal) v i = lrelu (v i) := by
  show Scalar.select (Ideal.cmp .oge (v i)
        (broadcastInDim S50000x128 ![] bcast_S_S50000x128 (constant (F := Ideal) S_ .f32 0x00000000#32) i)) (v i)
      (broadcastInDim S50000x128 ![] bcast_S_S50000x128 (id (constant (F := Ideal) S_ .f32 0x3E4CCCCD#32)) i * v i) = _
  rw [Broadcasts.scalar_apply, Broadcasts.scalar_apply]
  rfl

theorem quotient_apply (ss : FVec Ideal S50000x128 .f32) (cn : FVec Ideal S50000x1 .f32) (p : Fin 50000) (c : Fin 128) :
    Host.divf (F := Ideal) ss (broadcastInDim S50000x128 ![0, 1] bcast_S50000x1_S50000x128_0_1 cn) (ix2 p c)
      = Ideal.div (ss (ix2 p c)) (cn (ix2 p (0 : Fin 1))) := by
  show Ideal.div (ss (ix2 p c)) (broadcastInDim S50000x128 ![0, 1] bcast_S50000x1_S50000x128_0_1 cn (ix2 p c)) = _
  rw [Broadcasts.widen_apply]

theorem updated_apply (x ss : FVec Ideal S50000x128 .f32) (cn : FVec Ideal S50000x1 .f32) (ws wn : FVec Ideal S128x128 .f32)
    (p : Fin 50000) (q : Fin 128) :
    updated (F := Ideal) x ss cn ws wn (ix2 p q)
      = upd ws wn (fun c => x (ix2 p c)) (fun c => Ideal.div (ss (ix2 p c)) (cn (ix2 p (0 : Fin 1)))) q := by
  unfold updated
  rw [leaky_apply]
  show lrelu (dense x ws (ix2 p q)
      + leaky (dense (Host.divf ss (broadcastInDim S50000x128 ![0, 1] bcast_S50000x1_S50000x128_0_1 cn)) wn) (ix2 p q)) = _
  rw [leaky_apply, dense_apply, dense_apply]
  have e : (fun c : Fin 128 => Host.divf (F := Ideal) ss (broadcastInDim S50000x128 ![0, 1] bcast_S50000x1_S50000x128_0_1 cn) (ix2 p c))
      = fun c : Fin 128 => Ideal.div (ss (ix2 p c)) (cn (ix2 p (0 : Fin 1))) := funext fun c => quotient_apply ss cn p c
  rw [e]
  rfl

theorem reduces_rows : S50000x128.Reduces [1] S50000 :=
  match reducesTo_S50000x128_S50000_d1 with
  | ⟨h, hb⟩ => ⟨h, Nat.one_pos, hb⟩

theorem hostSqrt_apply {s : Shape} (x : FVec Ideal s .f32) (i : s.Idx) : Host.sqrt (F := Ideal) x i = Ideal.sqrt (x i) := rfl

theorem normalised_apply (u : FVec Ideal S50000x128 .f32) (p : Fin 50000) (q : Fin 128) :
    normalised (F := Ideal) u (ix2 p q) = Ideal.div (u (ix2 p q)) (len (fun k => u (ix2 p k))) := by
  unfold normalised
  rw [HostReads.hostDivf_apply, Broadcasts.widen_apply, maximumf_apply, Broadcasts.scalar_apply, hostSqrt_apply,
    Broadcasts.column_apply, HostReads.hostRowSum_apply _ reduces_rows, constant_apply, constant_apply,
    Ideal.ofBits_zero_f32, zero_add]
  rfl

/-- THE REFERENCE'S RESULT is, node by node, the node's output with the neighbour mean spelt as a quotient. -/
theorem result_eq (x : FVec Ideal S50000x128 .f32) (e : IVec S2x800000 32) (w3 w4 : FVec Ideal S128x128 .f32) :
    result (F := Ideal) x e w3 w4
      = nodesByQuotient x
          (neighbourSum x (endpoints 0 slices_S2x800000_S1x800000_0_0 e) (wrapNeg (endpoints 1 slices_S2x800000_S1x800000_1_0 e)))
          (flooredCount (F := Ideal) (endpoints 0 slices_S2x800000_S1x800000_0_0 e))
          (transpose S128x128 [1, 0] w3 transposes_S128x128_S128x128_1_0)
          (transpose S128x128 [1, 0] w4 transposes_S128x128_S128x128_1_0) := by
  funext i
  obtain ⟨p, q, rfl⟩ : ∃ (p : Fin 50000) (q : Fin 128), i = ix2 p q := ⟨i 0, i 1, eq_ix2 i⟩
  unfold result
  rw [normalised_apply]
  simp only [updated_apply]
  rfl

end Cert.ReferenceIdeal.HandValue

end
-- ==== Proof.LibRowOps.lean ====
/-
  Row operations of a two-axis array read at an index.

  A gather of rows: the operand is n × q, the start indices an m × 1 array of words, and row e of the result is the
  operand's row at the word of e read signed and clamped into 0 … n − 1 (the slice is one whole row, so the clamp's upper
  end is n − 1).  Its rank-1 sibling gathers entries of a vector of n entries.

  An accumulating scatter of rows: update row e is added to operand row i exactly when the word of e, read signed and
  not clamped, is i; the column is kept.  So entry (i, c) of the result is the operand's entry plus the sum, over the
  rows e whose word is i, of update entry (e, c).

  Two facts about extended reals used beside them: a finite sum times a factor that is nonnegative and not ⊤ distributes,
  and the guarded reciprocal square root (0 unless the argument is positive) is nonnegative and never ⊤.
-/
import Idealize.ShloMosaic.Lib.ValueIdx
import Idealize.ShloMosaic.PureOps.Ideal.Laws

noncomputable section

open scoped BigOperators

namespace RowOps

open Idealize.ShloMosaic Idealize.ShloMosaic.ValueIdx

/-- a word read signed, a negative one as 0, capped at n - 1 -/
def clampRow (n : Nat) (hn : 0 < n) {wd : Nat} (x : BitVec wd) : Fin n := ⟨min x.toInt.toNat (n - 1), by omega⟩

/-! ## A gather of rows -/

section GatherRows
variable {α : Type} {n m q wd : Nat}

/-- The dimension numbers of a gather of rows as a literal record over given conditions. -/
abbrev rowGatherDims (n m q : Nat)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

/-- The gather of rows read at (e, c), for the literal record: the operand at the clamped word of row e, column c. -/
theorem rowGatherDims_apply (wf : GatherDims.WF ⟨2, ![n, q]⟩ ⟨2, ![m, 1]⟩ ⟨2, ![m, q]⟩ [1] [0] [] [0] [] 1 ![1, q])
    (hn : 0 < n) (x : (⟨2, ![n, q]⟩ : Shape).Idx → α) (idx : IVec (⟨2, ![m, 1]⟩ : Shape) wd) (e : Fin m) (c : Fin q) :
    Host.gather (rowGatherDims n m q wf) x idx (ix2 e c) = x (ix2 (clampRow n hn (idx (ix2 e (0 : Fin 1)))) c) := by
  unfold Host.gather
  congr 1
  funext a
  refine Fin.ext ?_
  match a with
  | ⟨0, _⟩ =>
    show (rowGatherDims n m q wf).start (ix2 e c) idx 0 + (rowGatherDims n m q wf).batchCoord (ix2 e c) 0
      + (rowGatherDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n m q wf).startIndexMap from List.mem_singleton.mpr rfl)]
    have hsi : (rowGatherDims n m q wf).siIdx (ix2 e c) ⟨List.idxOf (0 : Fin 2) (rowGatherDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims n m q wf).start (ix2 e c) idx 1 + (rowGatherDims n m q wf).batchCoord (ix2 e c) 1
      + (rowGatherDims n m q wf).offCoord (ix2 e c) 1 = c.val
    rw [GatherDims.batchCoord_eq_zero _ _ _ List.not_mem_nil]
    have hst : (rowGatherDims n m q wf).start (ix2 e c) idx 1 = 0 := by
      unfold GatherDims.start
      rw [dif_neg (show ¬ (1 : Fin 2) ∈ ([0] : List (Fin 2)) by decide)]
    have hoff : (rowGatherDims n m q wf).offCoord (ix2 e c) 1 = c.val := by
      unfold GatherDims.offCoord
      have hmem : (1 : Fin 2) ∈ (rowGatherDims n m q wf).sKept :=
        (GatherDims.mem_sKept _ _).mpr ⟨show ¬ (1 : Fin 2) ∈ ([0] : List (Fin 2)) by decide, List.not_mem_nil⟩
      rw [dif_pos hmem]
      rfl
    rw [hst, hoff]; simp

/-- THE GATHER OF ROWS READ AT (e, c), for any record with these fields: the operand at the word of row e, read signed
    and clamped into 0 … n − 1, column c. -/
theorem gather_rows_apply {α : Type} {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) wd) (e : Fin m) (c : Fin q) :
    Host.gather gd x idx (ix2 e c) = x (ix2 (clampRow n hn (idx (ix2 e (0 : Fin 1)))) c) := by
  obtain ⟨od, cd, ob, sb, sm, iv, ss, wf⟩ := gd
  dsimp only at ho hc hob hsb hm hv hs
  subst ho hc hob hsb hm hv hs
  exact rowGatherDims_apply wf hn x idx e c

end GatherRows

/-! ## An accumulating scatter of rows -/

section ScatterRows
variable {n m q wd : Nat}

/-- The dimension numbers of a scatter of rows as a literal record over given conditions. -/
abbrev rowScatterDims (n m q : Nat) (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

/-- On the row axis, start plus window coordinate of update (e, c') is the word of row e read signed. -/
theorem rowScatterDims_axis0 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 0 + ((rowScatterDims n m q wf).window (ix2 e c') 0 : Nat)
      = (idx (ix2 e (0 : Fin 1))).toInt := by
  have hw : (rowScatterDims n m q wf).window (ix2 e c') 0 = 0 := by
    unfold ScatterDims.window
    have hmem : ¬ (0 : Fin 2) ∈ (rowScatterDims n m q wf).sKept := by
      show ¬ (0 : Fin 2) ∈ (List.finRange 2).filter (· ∉ ([0] : List (Fin 2)))
      decide
    rw [dif_neg hmem]
  have hs : (rowScatterDims n m q wf).start (ix2 e c') idx 0 = (idx (ix2 e (0 : Fin 1))).toInt := by
    unfold ScatterDims.start
    rw [dif_pos (show (0 : Fin 2) ∈ (rowScatterDims n m q wf).scatterDimsToOperandDims from List.mem_cons_self)]
    have hsi : (rowScatterDims n m q wf).siIdx (ix2 e c')
        ⟨List.idxOf (0 : Fin 2) (rowScatterDims n m q wf).scatterDimsToOperandDims,
          List.idxOf_lt_length_iff.2 List.mem_cons_self⟩ = ix2 e (0 : Fin 1) := by
      funext b; refine Fin.ext ?_
      match b with
      | ⟨0, _⟩ => rfl
      | ⟨1, _⟩ => rfl
    rw [hsi]
  rw [hw, hs]; simp

/-- On the column axis, start plus window coordinate of update (e, c') is c'. -/
theorem rowScatterDims_axis1 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 1 + ((rowScatterDims n m q wf).window (ix2 e c') 1 : Nat)
      = (c'.val : Int) := by
  have hw : (rowScatterDims n m q wf).window (ix2 e c') 1 = c'.val := by
    unfold ScatterDims.window
    have hmem : (1 : Fin 2) ∈ (rowScatterDims n m q wf).sKept := by
      show (1 : Fin 2) ∈ (List.finRange 2).filter (· ∉ ([0] : List (Fin 2)))
      decide
    rw [dif_pos hmem]
    rfl
  have hs : (rowScatterDims n m q wf).start (ix2 e c') idx 1 = 0 := by
    unfold ScatterDims.start
    rw [dif_neg (show ¬ (1 : Fin 2) ∈ ([0] : List (Fin 2)) by decide)]
  rw [hw, hs]; simp

/-- Update (e, c') lands on entry (i, c) exactly when the word of row e read signed is i and c' = c: the literal
    record. -/
theorem rowScatterDims_resultIdx (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) (i : Fin n) (c : Fin q) :
    (rowScatterDims n m q wf).resultIdx? (ix2 e c') idx = some (ix2 i c)
      ↔ (idx (ix2 e (0 : Fin 1))).toInt = (i.val : Int) ∧ c' = c := by
  have h0 := rowScatterDims_axis0 wf idx e c'
  have h1 := rowScatterDims_axis1 wf idx e c'
  have hi := i.isLt
  have hc' := c'.isLt
  unfold ScatterDims.resultIdx?
  constructor
  · intro h
    split at h
    · have e0 := congrArg Fin.val (congrFun (Option.some.inj h) 0)
      have e1 := congrArg Fin.val (congrFun (Option.some.inj h) 1)
      change ((rowScatterDims n m q wf).start (ix2 e c') idx 0
        + ((rowScatterDims n m q wf).window (ix2 e c') 0 : Nat)).toNat = i.val at e0
      change ((rowScatterDims n m q wf).start (ix2 e c') idx 1
        + ((rowScatterDims n m q wf).window (ix2 e c') 1 : Nat)).toNat = c.val at e1
      rename_i hall
      have a0 := hall 0
      rw [h0] at e0 a0
      rw [h1] at e1
      exact ⟨by omega, Fin.ext (by omega)⟩
    · cases h
  · rintro ⟨hw, rfl⟩
    have hall : ∀ a : Fin 2, 0 ≤ (rowScatterDims n m q wf).start (ix2 e c') idx a
          + ((rowScatterDims n m q wf).window (ix2 e c') a : Nat)
        ∧ (rowScatterDims n m q wf).start (ix2 e c') idx a + ((rowScatterDims n m q wf).window (ix2 e c') a : Nat)
          < ((⟨2, ![n, q]⟩ : Shape).size a : Nat) := by
      intro a
      match a with
      | ⟨0, _⟩ =>
        show 0 ≤ (rowScatterDims n m q wf).start (ix2 e c') idx 0 + ((rowScatterDims n m q wf).window (ix2 e c') 0 : Nat)
          ∧ (rowScatterDims n m q wf).start (ix2 e c') idx 0 + ((rowScatterDims n m q wf).window (ix2 e c') 0 : Nat)
            < (n : Int)
        rw [h0]; omega
      | ⟨1, _⟩ =>
        show 0 ≤ (rowScatterDims n m q wf).start (ix2 e c') idx 1 + ((rowScatterDims n m q wf).window (ix2 e c') 1 : Nat)
          ∧ (rowScatterDims n m q wf).start (ix2 e c') idx 1 + ((rowScatterDims n m q wf).window (ix2 e c') 1 : Nat)
            < (q : Int)
        rw [h1]; omega
    rw [dif_pos hall]
    congr 1
    funext a
    refine Fin.ext ?_
    match a with
    | ⟨0, _⟩ =>
      show ((rowScatterDims n m q wf).start (ix2 e c') idx 0
        + ((rowScatterDims n m q wf).window (ix2 e c') 0 : Nat)).toNat = i.val
      rw [h0]; omega
    | ⟨1, _⟩ =>
      show ((rowScatterDims n m q wf).start (ix2 e c') idx 1
        + ((rowScatterDims n m q wf).window (ix2 e c') 1 : Nat)).toNat = c'.val
      rw [h1]; omega

/-- UPDATE (e, c') LANDS ON ENTRY (i, c) EXACTLY WHEN THE WORD OF ROW e READ SIGNED IS i AND c' = c, for any record with
    these fields. -/
theorem resultIdx_rows (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (idx : IVec (⟨2, ![m, 1]⟩ : Shape) wd) (e : Fin m) (c' : Fin q) (i : Fin n) (c : Fin q) :
    d.resultIdx? (ix2 e c') idx = some (ix2 i c) ↔ (idx (ix2 e (0 : Fin 1))).toInt = (i.val : Int) ∧ c' = c := by
  obtain ⟨uw, iw, sd, iv, wf⟩ := d
  dsimp only at hu hi hs hv
  subst hu hi hs hv
  exact rowScatterDims_resultIdx wf idx e c' i c

/-- ENTRY (i, c) OF THE ACCUMULATING SCATTER OF ROWS: the operand's entry plus the sum, over the update rows whose word
    read signed is i, of their entries in column c. -/
theorem scatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Ideal.hostScatterAdd d x idx upd (ix2 i c)
      = x (ix2 i c) + ∑ e ∈ Finset.univ.filter (fun e : Fin m => (idx (ix2 e (0 : Fin 1))).toInt = (i.val : Int)), upd (ix2 e c) := by
  unfold Ideal.hostScatterAdd
  congr 1
  rw [Finset.sum_filter, Finset.sum_filter, sum_idx2]
  refine Finset.sum_congr rfl fun e _ => ?_
  have hterm : ∀ c' : Fin q,
      (if d.resultIdx? (ix2 e c') idx = some (ix2 i c) then upd (ix2 e c') else 0)
        = if c' = c then (if (idx (ix2 e (0 : Fin 1))).toInt = (i.val : Int) then upd (ix2 e c) else 0) else 0 := by
    intro c'
    rw [if_congr (resultIdx_rows d hu hi hs hv idx e c' i c) rfl rfl]
    by_cases hcc : c' = c
    · subst hcc; simp
    · simp [hcc]
  rw [Finset.sum_congr rfl fun c' _ => hterm c']
  simp

end ScatterRows

/-! ## A gather of entries of a vector -/

section GatherVec
variable {α : Type} {n m wd : Nat}

/-- The dimension numbers of a gather of entries of a vector as a literal record over given conditions. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The gather of entries read at e, for the literal record: the operand at the clamped word of row e. -/
theorem vecGatherDims_apply (wf : GatherDims.WF ⟨1, ![n]⟩ ⟨2, ![m, 1]⟩ ⟨1, ![m]⟩ [] [0] [] [0] [] 1 ![1])
    (hn : 0 < n) (x : (⟨1, ![n]⟩ : Shape).Idx → α) (idx : IVec (⟨2, ![m, 1]⟩ : Shape) wd) (e : Fin m) :
    Host.gather (vecGatherDims n m wf) x idx (ix1 e) = x (ix1 (clampRow n hn (idx (ix2 e (0 : Fin 1))))) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF ENTRIES OF A VECTOR READ AT e, for any record with these fields: the operand at the word of row e,
    read signed and clamped into 0 … n − 1. -/
theorem gather_vec_apply {α : Type} {n m wd : Nat}
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1]) (hn : 0 < n)
    (x : (⟨1, ![n]⟩ : Shape).Idx → α) (idx : IVec (⟨2, ![m, 1]⟩ : Shape) wd) (e : Fin m) :
    Host.gather gd x idx (ix1 e) = x (ix1 (clampRow n hn (idx (ix2 e (0 : Fin 1))))) := by
  obtain ⟨od, cd, ob, sb, sm, iv, ss, wf⟩ := gd
  dsimp only at ho hc hob hsb hm hv hs
  subst ho hc hob hsb hm hv hs
  exact vecGatherDims_apply wf hn x idx e

end GatherVec

/-! ## Extended reals: a sum times a factor, and the guarded reciprocal square root -/

/-- A finite sum times a factor that is nonnegative and not ⊤ is the sum of the products. -/
theorem sum_mul_of_nonneg_ne_top {ι : Type} (s : Finset ι) (f : ι → EReal) (d : EReal) (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The reciprocal square root guarded by "the argument is positive" (0 otherwise) is nonnegative and never ⊤: at ⊤ it is
    0, at a positive real r it is the real (√r)⁻¹, and everywhere else the guard gives 0. -/
theorem dinv_nonneg_ne_top (x : EReal) :
    0 ≤ (Scalar.select (Ideal.cmp .ogt x 0) (Ideal.rsqrt x) (0 : EReal))
      ∧ (Scalar.select (Ideal.cmp .ogt x 0) (Ideal.rsqrt x) (0 : EReal)) ≠ ⊤ := by
  by_cases hx : 0 < x
  · have hcmp : Ideal.cmp .ogt x 0 = 1#1 := by simp [Ideal.cmp, hx]
    rw [hcmp, select_one]
    induction x using EReal.rec with
    | bot => exact absurd hx (by simp)
    | top =>
      have hval : Ideal.rsqrt (⊤ : EReal) = 0 := rfl
      rw [hval]
      exact ⟨le_refl _, EReal.zero_ne_top⟩
    | coe r =>
      have hr : 0 < r := by exact_mod_cast hx
      have hval : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [hval]
      exact ⟨by exact_mod_cast inv_nonneg.mpr (Real.sqrt_nonneg r), EReal.coe_ne_top _⟩
  · have hcmp : Ideal.cmp .ogt x 0 = 0#1 := by simp [Ideal.cmp, hx]
    rw [hcmp, select_zero]
    exact ⟨le_refl _, EReal.zero_ne_top⟩

end RowOps

end
-- ==== Proof.LibHostScatter.lean ====
/-
  The host's accumulating row scatter on the extended reals, read at an entry, stated for the host operation itself.

  On the extended reals the host's accumulating scatter is the exact sum.  Stated at arbitrary sizes, where the
  identification of the host operation with that sum is a matter of unfolding and nothing is enumerated, and then used at
  any literal sizes by rewriting.
-/
import proofs.«154761_j28578712388014_2_alg».proof.Proof.LibRowOps

noncomputable section

open scoped BigOperators

namespace RowOps

open Idealize.ShloMosaic Idealize.ShloMosaic.ValueIdx

/-- ENTRY (i, c) OF THE HOST'S ACCUMULATING ROW SCATTER on the extended reals: the operand's entry plus the sum, over the
    update rows whose word read signed is i, of the rows' entry c. -/
theorem hostScatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Host.scatterAdd (F := Ideal) (φ := .f32) d x idx upd (ix2 i c)
      = x (ix2 i c) + ∑ e ∈ Finset.univ.filter (fun e : Fin m => (idx (ix2 e (0 : Fin 1))).toInt = (i.val : Int)), upd (ix2 e c) :=
  scatterAdd_rows_apply d hu hi hs hv x idx upd i c

end RowOps

end
-- ==== Proof.LibFinite.lean ====
/-
  Finite extended reals.

  An extended real is finite when it is a real number.  Sums, differences and products of finite values are finite,
  so is a finite sum of finite values, a quotient by a nonzero real, the maximum of two finite values, and the
  reciprocal square root of a positive real.  These are the closure facts one needs to know that a computation that
  starts from real inputs never leaves the reals.
-/
import Idealize.ShloMosaic.PureOps.Ideal

noncomputable section

open scoped BigOperators

namespace Finite

open Idealize.ShloMosaic

/-- An extended real that is a real number. -/
def IsFin (x : EReal) : Prop := ∃ r : ℝ, x = (r : EReal)

theorem IsFin.coe (r : ℝ) : IsFin (r : EReal) := ⟨r, rfl⟩

theorem IsFin.zero : IsFin (0 : EReal) := ⟨0, rfl⟩

theorem IsFin.one : IsFin (1 : EReal) := ⟨1, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.max {x y : EReal} (hx : IsFin x) (hy : IsFin y) : IsFin (max x y) := by
  rcases max_cases x y with h | h
  · rw [h.1]; exact hx
  · rw [h.1]; exact hy

/-- A finite sum of real numbers, taken on the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of finite values is finite. -/
theorem IsFin.sum {ι : Type} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- The quotient of a finite value by a nonzero real is finite. -/
theorem IsFin.div_coe {x : EReal} (hx : IsFin x) {y : ℝ} (hy : y ≠ 0) : IsFin (Ideal.div x (y : EReal)) := by
  rw [Ideal.div_coe hy]; exact hx.mul (IsFin.coe _)

/-- The reciprocal square root of a positive real is the real reciprocal of its square root. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The reciprocal square root of a positive real is finite. -/
theorem IsFin.rsqrt_pos {r : ℝ} (hr : 0 < r) : IsFin (Ideal.rsqrt (r : EReal)) := ⟨_, rsqrt_coe_pos hr⟩

end Finite

end
-- ==== Proof.RefHost.lean ====
/-
  Two facts about the host operations both programs share.

  Moving the negative words of a vector up by 50000 changes nothing when no word is negative.  The floored edge count of
  a node is a real number ≥ 1: the accumulating scatter of ones over zeros adds, at each node, finitely many ones to
  zero, and the maximum of a real number and 1 is a real number that is not 0.
-/
import proofs.«154761_j28578712388014_2_alg».proof.Proof.RefRun
import proofs.«154761_j28578712388014_2_alg».proof.Proof.LibHostScatter
import proofs.«154761_j28578712388014_2_alg».proof.Proof.LibFinite
import proofs.«154761_j28578712388014_2_alg».proof.Proof.LibBroadcasts
import proofs.«154761_j28578712388014_2_alg».proof.Proof.LibPlainMatmul
import proofs.«154761_j28578712388014_2_alg».proof.Proof.LibHostReads
import proofs.«154761_j28578712388014_2_alg».proof.Proof.RowSpec
import Idealize.ShloMosaic.Lib.Affine
import Idealize.ShloMosaic.Lib.ValueIdx

noncomputable section

open scoped BigOperators

namespace Cert.ReferenceIdeal.HandHost

open Cert.ReferenceIdeal Cert.ReferenceIdeal.Gen Cert.ReferenceIdeal.HandRun Idealize.ShloMosaic Idealize.ShloMosaic.ValueIdx

/-- A vector with no negative word is left as it is by the move of negative words. -/
theorem wrapNeg_of_nonneg (v : IVec S800000 32) (h : ∀ i, (0 : Int) ≤ (v i).toInt) : wrapNeg v = v := by
  funext i
  unfold wrapNeg
  rw [select_apply]
  have hc : ¬ (cmpi .slt v (broadcastInDim S800000 ![] bcast_S_S800000 (constantI S_ 32 0#32)) i = 1#1) := by
    intro hc
    have h1 : (v i).toInt < (0#32 : BitVec 32).toInt := IntOp.cmpi_slt.1 hc
    have h2 := h i
    have h3 : (0#32 : BitVec 32).toInt = 0 := by decide
    omega
  rw [eq_zero_of_ne_one hc, select_zero]

/-- THE FLOORED COUNT OF A NODE IS A NONZERO REAL. -/
theorem flooredCount_real (d : IVec S800000 32) (p : Fin 50000) :
    ∃ n : ℝ, n ≠ 0 ∧ flooredCount (F := Ideal) d (ix2 p (0 : Fin 1)) = (n : EReal) := by
  have hs : Finite.IsFin (Host.scatterAdd (F := Ideal) (φ := .f32) scatter_S50000x1_S800000x1_S800000x1_1_0_0_1
      (broadcastInDim S50000x1 ![] bcast_S_S50000x1 (constant (F := Ideal) S_ .f32 0x00000000#32))
      (broadcastInDim S800000x1 ![0] bcast_S800000_S800000x1_0 d)
      (broadcastInDim S800000x1 ![] bcast_S_S800000x1 (constant (F := Ideal) S_ .f32 0x3F800000#32))
      (ix2 p (0 : Fin 1))) := by
    rw [RowOps.hostScatterAdd_rows_apply scatter_S50000x1_S800000x1_S800000x1_1_0_0_1 rfl rfl rfl rfl]
    refine Finite.IsFin.add ?_ (Finite.IsFin.sum _ _ fun e _ => ?_)
    · rw [Broadcasts.scalar_apply, constant_apply, Ideal.ofBits_zero_f32]
      exact Finite.IsFin.zero
    · rw [Broadcasts.scalar_apply, constant_apply, Cert.Proof.LibPlainMatmul.ofBits_one_f32]
      exact Finite.IsFin.one
  obtain ⟨a, ha⟩ := hs
  refine ⟨max a 1, ?_, ?_⟩
  · have h1 : (1 : ℝ) ≤ max a 1 := le_max_right _ _
    intro h0
    rw [h0] at h1
    norm_num at h1
  · unfold flooredCount
    rw [maximumf_apply, ha, Broadcasts.scalar_apply, constant_apply, Cert.Proof.LibPlainMatmul.ofBits_one_f32, ← EReal.coe_one]
    exact (EReal.coe_strictMono.monotone.map_max).symm

/-- WITH THE RECIPROCAL COLUMN SPELT AS THE HOST SPELLS IT — the splat of one divided, entry by entry, by a column of
    nonzero reals — the output through sum-times-reciprocal is the output through sum-divided-by-count. -/
theorem reciprocal_form (x ss : FVec Ideal S50000x128 .f32) (cn : FVec Ideal S50000x1 .f32) (ws wn : FVec Ideal S128x128 .f32)
    (hb : S_.BroadcastsInDim S50000x1 (![] : Fin 0 → Fin S50000x1.rank))
    (hcn : ∀ p : Fin 50000, ∃ n : ℝ, n ≠ 0 ∧ cn (ix2 p (0 : Fin 1)) = (n : EReal)) :
    GraphConv.nodesByReciprocal x ss
        (Host.divf (F := Ideal) (broadcastInDim S50000x1 ![] hb (constant (F := Ideal) S_ .f32 0x3F800000#32)) cn) ws wn
      = GraphConv.nodesByQuotient x ss cn ws wn :=
  GraphConv.nodesByReciprocal_eq_nodesByQuotient x ss _ cn ws wn (Ideal.ofBits .f32 0x3F800000#32)
    Cert.Proof.LibPlainMatmul.ofBits_one_f32
    (fun j => by rw [HostReads.hostDivf_apply, Broadcasts.scalar_apply, constant_apply]) hcn

end Cert.ReferenceIdeal.HandHost

end
-- ==== Proof.PreDecode.lean ====
/-
  The precondition, read back: every destination word of the edge table is non-negative.

  The precondition is a conjunction of five tests, the last of them "every word of row 0 of the edge table is ≥ 0"
  (signed), spelt as a reduction by `and` of the comparisons.  That it comes out 1 gives each comparison.
-/
import proofs.«154761_j28578712388014_2_alg».proof.Pre_finite_inputs
import proofs.«154761_j28578712388014_2_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

instance scalarIdx : Subsingleton S_.Idx := ⟨fun a b => funext fun d => d.elim0⟩

/-- Row 0 of the edge table as a vector of 800000 words, as the precondition spells it. -/
def destinations (e : IVec S2x800000 32) : IVec S800000 32 :=
  shapeCast S800000 (extractStridedSlice S1x800000 ![0, 0] e slices_S2x800000_S1x800000_0_0) shapeCasts_S1x800000_S800000

/-- Under the precondition every destination word is ≥ 0 read signed. -/
theorem destinations_nonneg {F : FTy → Type} [FloatOps F] (a0 : FVec F S50000x128 .f32) (a1 : IVec S2x800000 32)
    (a2 : FVec F S800000x1 .f32) (a3 a4 : FVec F S128x128 .f32)
    (h : fn (F := F) a0 a1 a2 a3 a4 = fun _ => 1#1) (i : S800000.Idx) :
    (0 : Int) ≤ (destinations a1 i).toInt := by
  have e := congrFun h ValueIdx.ix0
  unfold fn fn_part1 at e
  have e2 := (IntOp.andi_eq_one.1 e).2
  have e3 := Host.reduce_andi_all _ _ _ _ _ e2 i
  exact IntOp.cmpi_sge.1 e3

end Cert.Pre_finite_inputs.Decode

end
-- ==== Proof.lean ====
/-
  A mean-aggregating graph convolution: a tiled kernel against its array-level reference, on the extended reals.

  Both programs compute, for every node p of 50000, from the node's feature row x_p, the sum s_p of the feature rows of
  the sources of the edges that end at p, and the number n_p of those edges floored at one:

      u_p = L( x_p · Wsᵀ + L( (s_p / n_p) · Wnᵀ ) ),   out_p = u_p / max(‖u_p‖, 1e-12),   L z = z for z ≥ 0, 0.2 z else.

  The reference does this on whole arrays.  The kernel's program forms s, the column 1 / n and the two transposes on the
  host and leaves the rest to a kernel launched at 50 grid points, each producing the 1000 rows of its block from the
  matching 1000 rows of x, of s and of 1 / n and from the two whole matrices.

  The two differ in three places.  The kernel multiplies s_p by the reciprocal 1 / n_p where the reference divides by
  n_p: n_p is a real number ≥ 1 (finitely many ones added to zero, floored at one), and on the extended reals dividing
  by a nonzero real is multiplying by its real reciprocal, whatever s_p is.  The kernel's program moves a negative
  destination word up by 50000 before scattering, the reference's does not: under the precondition no destination word
  is negative, so the move changes nothing.  And the kernel narrows the operands of its two products, which changes no
  value on the extended reals.  Everything else (the gather of source rows, the two accumulating scatters, the
  transposes, the products as sums over the contracted index, the rectifier, the row lengths) is the same function on
  both sides.  No law that needs finiteness of the inputs is used.
-/
import proofs.«154761_j28578712388014_2_alg».proof.Defs
import proofs.«154761_j28578712388014_2_alg».proof.Proof.Gen.Kernel
import proofs.«154761_j28578712388014_2_alg».proof.Proof.Gen.Kernel.Skeleton
import proofs.«154761_j28578712388014_2_alg».proof.Proof.Gen.Kernel.Launch
import proofs.«154761_j28578712388014_2_alg».proof.Proof.Gen.Kernel.Points
import proofs.«154761_j28578712388014_2_alg».proof.Proof.Gen.Kernel.Frame
import proofs.«154761_j28578712388014_2_alg».proof.Proof.Gen.KernelIdeal
import proofs.«154761_j28578712388014_2_alg».proof.Proof.Gen.KernelIdeal.Skeleton
import proofs.«154761_j28578712388014_2_alg».proof.Proof.Gen.KernelIdeal.Launch
import proofs.«154761_j28578712388014_2_alg».proof.Proof.Gen.KernelIdeal.Points
import proofs.«154761_j28578712388014_2_alg».proof.Proof.Gen.KernelIdeal.Frame
import proofs.«154761_j28578712388014_2_alg».proof.Proof.Gen.KernelIdeal.Value
import proofs.«154761_j28578712388014_2_alg».proof.Proof.Gen.ReferenceIdeal
import proofs.«154761_j28578712388014_2_alg».proof.Proof.Gen.Pre_finite_inputs
import proofs.«154761_j28578712388014_2_alg».proof.Proof.RowSpec
import proofs.«154761_j28578712388014_2_alg».proof.Proof.KernelValue
import proofs.«154761_j28578712388014_2_alg».proof.Proof.KernelHost
import proofs.«154761_j28578712388014_2_alg».proof.Proof.RefRun
import proofs.«154761_j28578712388014_2_alg».proof.Proof.RefValue
import proofs.«154761_j28578712388014_2_alg».proof.Proof.RefHost
import proofs.«154761_j28578712388014_2_alg».proof.Proof.PreDecode
import proofs.«154761_j28578712388014_2_alg».proof.Proof.LibPlainMatmul
import Idealize.ShloMosaic.Adequacy
import Idealize.ShloMosaic.Init

noncomputable section

namespace Cert.Proof

open Idealize.ShloMosaic Idealize.ShloMosaic.TcCoe Idealize.SL.Sem

/-- The word-level kernel's frame. -/
theorem frame_kernel : Cert.frame_Kernel := fun m ρ _ => Cert.Kernel.Gen.frame m ρ

/-- The idealized kernel's frame. -/
theorem frame_kernelIdeal : Cert.frame_KernelIdeal := fun m ρ _ => Cert.KernelIdeal.Gen.frame m ρ

/-- The reference's frame: its run with the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealized kernel is the kernel's own text read on the extended reals: nothing was rewritten. -/
theorem preserves : Cert.preserves_Kernel_KernelIdeal := trivial

/-- From memories that agree on the arguments both programs end with the node-by-node function of the arrays. -/
theorem algebraic : Cert.algebraic_KernelIdeal_ReferenceIdeal := by
  intro m ρ m' ρ' hpre hagree
  refine ⟨fun c => GraphConv.nodesByReciprocal (Cert.KernelIdeal.Gen.V m c Cert.KernelIdeal.main_arg0)
      (Cert.KernelIdeal.Gen.V m c Cert.KernelIdeal.main_v18) (Cert.KernelIdeal.Gen.V m c Cert.KernelIdeal.main_v31)
      (Cert.KernelIdeal.Gen.V m c Cert.KernelIdeal.main_v32) (Cert.KernelIdeal.Gen.V m c Cert.KernelIdeal.main_v33),
    Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  obtain ⟨a0, a1, -, a3, a4⟩ := hagree c
  beta_reduce
  rw [a0, a1, a3, a4, Cert.ReferenceIdeal.HandValue.result_eq, Cert.KernelIdeal.Gen.V_main_arg0,
    Cert.KernelIdeal.HostValues.sums, Cert.KernelIdeal.HostValues.reciprocals, Cert.KernelIdeal.HostValues.weights_self,
    Cert.KernelIdeal.HostValues.weights_neigh]
  -- under the precondition the destinations' negative words, of which there are none, need not be moved
  have hd := Cert.ReferenceIdeal.HandHost.wrapNeg_of_nonneg
    (Cert.ReferenceIdeal.HandRun.endpoints 0 Cert.ReferenceIdeal.Gen.slices_S2x800000_S1x800000_0_0
      (m ((c.tc : Thread Cert.KernelIdeal.nD Cert.KernelIdeal.τ).loc Cert.KernelIdeal.main_arg1)))
    (fun i => Cert.Pre_finite_inputs.Decode.destinations_nonneg _ _ _ _ _ (hpre c) i)
  unfold Cert.KernelIdeal.HostValues.ends
  rw [hd]
  -- the reciprocal of a nonzero real count times the sum is the sum divided by the count
  refine (Cert.ReferenceIdeal.HandHost.reciprocal_form _ _ _ _ _ _ ?_).symm
  exact fun p => Cert.ReferenceIdeal.HandHost.flooredCount_real _ p

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
